-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S1x1x2048x2048 : Shape := ⟨4, ![1, 1, 2048, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S2x12x2048x64 .f32) (main_arg1 : FVec F S2x12x2048x64 .f32) (main_arg2 : FVec F S2x12x2048x64 .f32) (main_arg3 : FVec F S1x1x2048x2048 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S2x12x2048x64 : Shape := ⟨4, ![2, 12, 2048, 64]⟩
abbrev S1x1x2048x2048 : Shape := ⟨4, ![1, 1, 2048, 2048]⟩
abbrev S2x12x2048x2048 : Shape := ⟨4, ![2, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S1x1x2048x2048, .f32⟩
  | .hbm, ⟨4, _⟩ => ⟨S2x12x2048x64, .f32⟩
  | .hbm, ⟨5, _⟩ => ⟨S2x12x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .f32⟩
  | .local _ .vmem, ⟨7, _⟩ => ⟨S1x1x512x64, .f32⟩
  | .local _ .vmem, ⟨8, _⟩ => ⟨S1x1x512x64, .f32⟩
  | .local _ .vmem, ⟨9, _⟩ => ⟨S1x1x512x2048, .f32⟩
  | .local _ .vmem, ⟨10, _⟩ => ⟨S1x1x512x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 12, 4], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 4 → Nat :=
  let c0_11 : Index := 0#32
  let c0_12 : Index := 0#32
  let arg2 : BitVec 32 := BitVec.ofNat 32 (i 2).val
  let c512_i32 : BitVec 32 := 512#32
  let v0 : BitVec 32 := Scalar.muli arg2 c512_i32
  let v1 : BitVec 32 := v0
  let v8 : Index := Scalar.indexCast v1
  let c0_13 : Index := 0#32
  ![0, 0, v8.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  inb_S1x1x512x2048_S1x1x512x2048_0_0_0_0 : ∀ a, (![0, 0, 0, 0] : Fin 4 → Nat) a + S1x1x512x2048.size a ≤ S1x1x512x2048.size a
  shapeCasts_S512x2048_S1x1x512x2048 : S512x2048.ShapeCasts S1x1x512x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x1x512x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x12x2048x64.size a
  hwx0_0 : ∀ i : grid0.Coords, EltTy.bits .f32 = 32 ∨ (Rect.block (s := S2x12x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x12x2048x64.size a
  hwx0_1 : ∀ i : grid0.Coords, EltTy.bits .f32 = 32 ∨ (Rect.block (s := S2x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x12x2048x64.size a
  hwx0_2 : ∀ i : grid0.Coords, EltTy.bits .f32 = 32 ∨ (Rect.block (s := S2x12x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .f32 = 32 ∨ (Rect.block (s := S1x1x2048x2048) S1x1x2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x12x2048x64.size a
  hwx0_4 : ∀ i : grid0.Coords, EltTy.bits .f32 = 32 ∨ (Rect.block (s := S2x12x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x12x2048x2048.size a
  hwx0_5 : ∀ i : grid0.Coords, EltTy.bits .f32 = 32 ∨ (Rect.block (s := S2x12x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S1x1x2048x2048 : Shape := ⟨4, ![1, 1, 2048, 2048]⟩
abbrev S_ : Shape := ⟨0, ![]⟩
abbrev S2x12x2048x2048 : Shape := ⟨4, ![2, 12, 2048, 2048]⟩
abbrev S2x12x2048 : Shape := ⟨3, ![2, 12, 2048]⟩
abbrev S2x12x2048x1 : Shape := ⟨4, ![2, 12, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S1x1x2048x2048, .f32⟩
  | .hbm, ⟨4, _⟩ => ⟨S_, .f32⟩
  | .hbm, ⟨5, _⟩ => ⟨S_, .f32⟩
  | .hbm, ⟨6, _⟩ => ⟨S2x12x2048x2048, .f32⟩
  | .hbm, ⟨7, _⟩ => ⟨S2x12x2048x2048, .f32⟩
  | .hbm, ⟨8, _⟩ => ⟨S2x12x2048x2048, .f32⟩
  | .hbm, ⟨9, _⟩ => ⟨S2x12x2048x2048, .f32⟩
  | .hbm, ⟨10, _⟩ => ⟨S2x12x2048x2048, .f32⟩
  | .hbm, ⟨11, _⟩ => ⟨S_, .f32⟩
  | .hbm, ⟨12, _⟩ => ⟨S2x12x2048, .f32⟩
  | .hbm, ⟨13, _⟩ => ⟨S_, .f32⟩
  | .hbm, ⟨14, _⟩ => ⟨S2x12x2048, .f32⟩
  | .hbm, ⟨15, _⟩ => ⟨S2x12x2048, .f32⟩
  | .hbm, ⟨16, _⟩ => ⟨S2x12x2048x1, .f32⟩
  | .hbm, ⟨17, _⟩ => ⟨S2x12x2048x2048, .f32⟩
  | .hbm, ⟨18, _⟩ => ⟨S2x12x2048x2048, .f32⟩
  | .hbm, ⟨19, _⟩ => ⟨S2x12x2048x2048, .f32⟩
  | .hbm, ⟨20, _⟩ => ⟨S_, .f32⟩
  | .hbm, ⟨21, _⟩ => ⟨S2x12x2048, .f32⟩
  | .hbm, ⟨22, _⟩ => ⟨S2x12x2048x1, .f32⟩
  | .hbm, ⟨23, _⟩ => ⟨S2x12x2048x2048, .f32⟩
  | .hbm, ⟨24, _⟩ => ⟨S2x12x2048x2048, .f32⟩
  | .hbm, ⟨25, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Spec.lean ====
/-
  Scaled dot-product attention with an additive mask, on the extended reals, entry by entry.

  For a batch `b`, a head `h`, a query row `s` and a key row `t` the logit is
  `(∑ d, q[b,h,s,d] · k[b,h,t,d]) · (1/8) + mask[0,0,s,t]`; a row of logits is turned into weights by the softmax
  `exp (L t − M) / ∑ u, exp (L u − M)` with `M = max (−∞) (max over the row, from −∞)`; the output is
  `∑ t, weight[b,h,s,t] · v[b,h,t,d]`.  The scale and `−∞` are kept as the float words both programs spell.
-/
import Idealize.ShloMosaic.PureOps.Ideal
import Idealize.ShloMosaic.Lib.ValueIdx

noncomputable section

namespace Cert.Attention

open Idealize.ShloMosaic Idealize.ShloMosaic.ValueIdx

/-- The scale `0.125`, as a float word read on the extended reals. -/
abbrev scale : EReal := Ideal.ofBits .f32 0x3E000000#32

/-- `−∞`, as a float word read on the extended reals. -/
abbrev negInf : EReal := Ideal.ofBits .f32 0xFF800000#32

/-- The softmax of one row of logits `L`, at position `t`: the row's maximum (taken from `−∞`, and once more against
    `−∞`) is subtracted before exponentiating, and the exponentials are divided by their sum. -/
def softmaxRow {n : ℕ} (L : Fin n → EReal) (t : Fin n) : EReal :=
  Ideal.div (Ideal.exp (L t - max negInf (Finset.univ.fold max negInf L)))
    (∑ u : Fin n, Ideal.exp (L u - max negInf (Finset.univ.fold max negInf L)))

/-- Queries, keys and values: `[2, 12, 2048, 64]`. -/
abbrev QKV : Type := (⟨4, ![2, 12, 2048, 64]⟩ : Shape).Idx → EReal

/-- The additive mask: `[1, 1, 2048, 2048]`, shared by every batch and head. -/
abbrev Mask : Type := (⟨4, ![1, 1, 2048, 2048]⟩ : Shape).Idx → EReal

/-- The logit of query row `s` against key row `t`: the scaled inner product over the 64 features, plus the mask. -/
def logit (q k : QKV) (mask : Mask) (b : Fin 2) (h : Fin 12) (s t : Fin 2048) : EReal :=
  (∑ d : Fin 64, q (ix4 b h s d) * k (ix4 b h t d)) * scale + mask (ix4 (0 : Fin 1) (0 : Fin 1) s t)

/-- The attention weights `[2, 12, 2048, 2048]`: each query row's logits through the softmax. -/
def weights (q k : QKV) (mask : Mask) : (⟨4, ![2, 12, 2048, 2048]⟩ : Shape).Idx → EReal :=
  fun i => softmaxRow (logit q k mask (i 0) (i 1) (i 2)) (i 3)

/-- The attention output `[2, 12, 2048, 64]`: each query row's weights applied to the values. -/
def attend (q k v : QKV) (mask : Mask) : (⟨4, ![2, 12, 2048, 64]⟩ : Shape).Idx → EReal :=
  fun i => ∑ t : Fin 2048, weights q k mask (ix4 (i 0) (i 1) (i 2) t) * v (ix4 (i 0) (i 1) t (i 3))

end Cert.Attention

end
-- ==== Proof.Scale.lean ====
/-
  The one arithmetic fact that joins the two programs: dividing by the square root of 64 is multiplying by 0.125.

  On the extended reals the float word of `64.0` is the real `64`, its square root is `8`, the float word of `0.125`
  is `1/8`, and a quotient by a non-zero real is the product with its reciprocal — at every extended real, the
  infinities included.
-/
import Idealize.ShloMosaic.PureOps.Ideal

noncomputable section

namespace Cert.Attention

open Idealize.ShloMosaic

/-- The float word of `64.0` denotes the real `64`. -/
theorem ofBits_64 : Ideal.ofBits .f32 0x42800000#32 = ((64 : ℝ) : EReal) := by
  simp [Ideal.ofBits, Ideal.ieee, -EReal.coe_mul]; norm_num

/-- The float word of `0.125` denotes the real `1/8`. -/
theorem ofBits_eighth : Ideal.ofBits .f32 0x3E000000#32 = ((1 / 8 : ℝ) : EReal) := by
  simp [Ideal.ofBits, Ideal.ieee, -EReal.coe_mul]; norm_num

/-- The square root of `64` is `8`. -/
theorem sqrt_64 : Ideal.sqrt ((64 : ℝ) : EReal) = ((8 : ℝ) : EReal) := by
  rw [Ideal.sqrt_coe, if_neg (by norm_num)]
  rw [show (64 : ℝ) = 8 ^ 2 by norm_num, Real.sqrt_sq (by norm_num)]

/-- A quotient by `√64` is the product with `0.125`, for every extended real. -/
theorem div_sqrt_64 (x : EReal) :
    Ideal.div x (Ideal.sqrt (Ideal.ofBits .f32 0x42800000#32)) = x * Ideal.ofBits .f32 0x3E000000#32 := by
  rw [ofBits_64, sqrt_64, Ideal.div_coe (by norm_num), ofBits_eighth]

end Cert.Attention

end
-- ==== Proof.LibLayout2.lean ====
/-
  One more slice read at coordinates: a rank-3 array cut along its first axis.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- A rank-3 array cut along its first axis from `o` reads, at `(j, a, e)`, the source at `(o + j, a, e)`. -/
theorem slice3_axis0_eq {n0 n1 n2 m : Nat} (o : Nat) (X : (⟨3, ![n0, n1, n2]⟩ : Shape).Idx → α)
    (h : (⟨3, ![n0, n1, n2]⟩ : Shape).Slices ![o, 0, 0] ⟨3, ![m, n1, n2]⟩) (j : Fin m) (a : Fin n1) (e : Fin n2) :
    extractStridedSlice ⟨3, ![m, n1, n2]⟩ ![o, 0, 0] X h (ix3 j a e)
      = X (ix3 ⟨o + j.val, Nat.lt_of_lt_of_le (Nat.add_lt_add_left j.isLt o) (h.2 0)⟩ a e) :=
  extractStridedSlice_apply _ _ _ _ _ (fun ax => by
    match ax with
    | ⟨0, _⟩ => rfl
    | ⟨1, _⟩ => exact (Nat.zero_add _).symm
    | ⟨2, _⟩ => exact (Nat.zero_add _).symm)

/-- The host's reduction by `max` over the last axis of a rank-4 array of extended reals, read at `(i, j, k)`: the fold
    of `max` over that axis from the initial value. -/
theorem hostReduce_max_last {a b c d : ℕ} {u : Shape} (x : FVec Ideal ⟨4, ![a, b, c, d]⟩ .f32) (init : u.Idx → EReal)
    (h' : (⟨4, ![a, b, c, d]⟩ : Shape).ReducesTo [3] ⟨3, ![a, b, c]⟩) (h : (⟨4, ![a, b, c, d]⟩ : Shape).Reduces [3] ⟨3, ![a, b, c]⟩)
    (hu : 0 < u.numel) (i : Fin a) (j : Fin b) (k : Fin c) :
    Host.reduce FloatOps.maximumf x init h' hu (ix3 i j k)
      = (Finset.univ : Finset (Fin d)).fold max (init (Shape.Idx.first hu)) (fun l => x (ix4 i j k l)) := by
  rw [Host.reduce_eq_fold_single FloatOps.maximumf x init h' h hu]
  refine congrArg (Finset.fold max (init (Shape.Idx.first hu)) · Finset.univ) (funext fun l => ?_)
  exact congrArg x (funext fun ax => Fin.ext (by match ax with | ⟨0, _⟩ => rfl | ⟨1, _⟩ => rfl | ⟨2, _⟩ => rfl | ⟨3, _⟩ => rfl))

end Cert.LibLayout
-- ==== Proof.RefSpec.lean ====
/-
  The reference program computes the attention of Spec.lean.

  Its stages are read one at a time at coordinates: the logits (the host's `dot_general` over the 64 features, divided
  by `√64`, plus the mask broadcast over batch and head), the row maximum (the host's reduction by `max` from `−∞`,
  then once more against `−∞`), the exponentials, their row sum (from the zero word), the quotient, and the second
  `dot_general` over the 2048 keys.  The only arithmetic is that a quotient by `√64` is a product with `0.125`.
-/
import proofs.«179951_j88742614270714_1_alg».proof.Proof.Gen.ReferenceIdeal.Read
import proofs.«179951_j88742614270714_1_alg».proof.Proof.Spec
import proofs.«179951_j88742614270714_1_alg».proof.Proof.Scale
import proofs.«179951_j88742614270714_1_alg».proof.Proof.LibLayout2

noncomputable section

namespace Cert.Attention.Ref

open Cert.ReferenceIdeal Cert.ReferenceIdeal.Gen Cert.ReferenceIdeal.Read
open Idealize.ShloMosaic Idealize.ShloMosaic.ValueIdx Cert.Attention

variable (x0 x1 x2 : (⟨S2x12x2048x64, .f32⟩ : BufTy).Contents (Elt Ideal))
variable (x3 : (⟨S1x1x2048x2048, .f32⟩ : BufTy).Contents (Elt Ideal))

/-- The reference's logits at `(b, h, s, t)`. -/
theorem logit_eq (b : Fin 2) (h : Fin 12) (s t : Fin 2048) :
    val_main_v5 (F := Ideal) x0 x1 x3 (ix4 b h s t) = logit x0 x1 x3 b h s t := by
  have el : ∀ k : Fin 64, lidx_main_v1 (ix4 b h s t) k = ix4 b h s k := fun k => funext fun a => Fin.ext (by
    match a with | ⟨0, _⟩ => rfl | ⟨1, _⟩ => rfl | ⟨2, _⟩ => rfl | ⟨3, _⟩ => rfl)
  have er : ∀ k : Fin 64, ridx_main_v1 (ix4 b h s t) k = ix4 b h t k := fun k => funext fun a => Fin.ext (by
    match a with | ⟨0, _⟩ => rfl | ⟨1, _⟩ => rfl | ⟨2, _⟩ => rfl | ⟨3, _⟩ => rfl)
  have em : idx_main_v4 (ix4 b h s t) = ix4 (0 : Fin 1) (0 : Fin 1) s t := funext fun a => Fin.ext (by
    match a with | ⟨0, _⟩ => rfl | ⟨1, _⟩ => rfl | ⟨2, _⟩ => rfl | ⟨3, _⟩ => rfl)
  rw [val_main_v5_apply, val_main_v3_apply, val_main_v1_apply, val_main_v2_apply, val_main_v0_apply, val_main_cst_apply,
    val_main_v4_apply]
  simp only [el, er, em, Ideal.hostDivf_def, Ideal.addf_def, Ideal.hostUnary_sqrt_def, Ideal.ofBits_def, div_sqrt_64]
  rfl

/-- The reference's row maximum at `(b, h, s)`: the fold of `max` over the row's logits from `−∞`, then against `−∞`. -/
theorem rowmax_eq (b : Fin 2) (h : Fin 12) (s : Fin 2048) :
    val_main_v8 (F := Ideal) x0 x1 x3 (ix3 b h s)
      = max negInf (Finset.univ.fold max negInf (logit x0 x1 x3 b h s)) := by
  rw [val_main_v8_apply, val_main_v7_apply, val_main_cst_1_apply]
  unfold val_main_v6
  rw [Cert.LibLayout.hostReduce_max_last _ _ _ (by decide) _ b h s]
  simp only [logit_eq, val_main_cst_0_apply, Ideal.maximumf_def, Ideal.ofBits_def]

/-- The reference's exponentials at `(b, h, s, t)`. -/
theorem exp_eq (b : Fin 2) (h : Fin 12) (s t : Fin 2048) :
    val_main_v12 (F := Ideal) x0 x1 x3 (ix4 b h s t)
      = Ideal.exp (logit x0 x1 x3 b h s t - max negInf (Finset.univ.fold max negInf (logit x0 x1 x3 b h s))) := by
  have e : idx_main_v9 (idx_main_v10 (ix4 b h s t)) = ix3 b h s := funext fun a => Fin.ext (by
    match a with | ⟨0, _⟩ => rfl | ⟨1, _⟩ => rfl | ⟨2, _⟩ => rfl)
  rw [val_main_v12_apply, val_main_v11_apply, val_main_v10_apply, val_main_v9_apply, e, rowmax_eq, logit_eq]
  simp only [Ideal.hostUnary_exp_def, Ideal.subf_def]

/-- The reference's row sum of exponentials at `(b, h, s)`: the zero word contributes nothing. -/
theorem rowsum_eq (b : Fin 2) (h : Fin 12) (s : Fin 2048) :
    val_main_v13 (F := Ideal) x0 x1 x3 (ix3 b h s)
      = ∑ u : Fin 2048, Ideal.exp (logit x0 x1 x3 b h s u - max negInf (Finset.univ.fold max negInf (logit x0 x1 x3 b h s))) := by
  have e : ∀ k : Fin 2048, idx_main_v13 (ix3 b h s) k = ix4 b h s k := fun k => funext fun a => Fin.ext (by
    match a with | ⟨0, _⟩ => rfl | ⟨1, _⟩ => rfl | ⟨2, _⟩ => rfl | ⟨3, _⟩ => rfl)
  rw [val_main_v13_apply, val_main_cst_2_apply]
  simp only [e, exp_eq, Ideal.ofBits_def, Ideal.ofBits_zero_f32, zero_add]

/-- The reference's second result is the attention weights. -/
theorem weights_eq : val_main_v16 (F := Ideal) x0 x1 x3 = weights x0 x1 x3 := by
  funext i
  obtain ⟨b, h, s, t, rfl⟩ : ∃ (b : Fin 2) (h : Fin 12) (s t : Fin 2048), i = ix4 b h s t := ⟨i 0, i 1, i 2, i 3, eq_ix4 i⟩
  have e : idx_main_v14 (idx_main_v15 (ix4 b h s t)) = ix3 b h s := funext fun a => Fin.ext (by
    match a with | ⟨0, _⟩ => rfl | ⟨1, _⟩ => rfl | ⟨2, _⟩ => rfl)
  rw [val_main_v16_apply, val_main_v15_apply, val_main_v14_apply, e, rowsum_eq, exp_eq]
  simp only [Ideal.hostDivf_def]
  rfl

/-- The reference's first result is the attention output. -/
theorem attend_eq : val_main_v17 (F := Ideal) x0 x1 x2 x3 = attend x0 x1 x2 x3 := by
  funext i
  have el : ∀ k : Fin 2048, lidx_main_v17 i k = ix4 (i 0) (i 1) (i 2) k := fun k => funext fun a => Fin.ext (by
    match a with | ⟨0, _⟩ => rfl | ⟨1, _⟩ => rfl | ⟨2, _⟩ => rfl | ⟨3, _⟩ => rfl)
  have er : ∀ k : Fin 2048, ridx_main_v17 i k = ix4 (i 0) (i 1) k (i 3) := fun k => funext fun a => Fin.ext (by
    match a with | ⟨0, _⟩ => rfl | ⟨1, _⟩ => rfl | ⟨2, _⟩ => rfl | ⟨3, _⟩ => rfl)
  rw [val_main_v17_apply]
  simp only [el, er, weights_eq]
  rfl

end Cert.Attention.Ref

end
-- ==== Proof.Pieces.lean ====
/-
  What one run of the kernel body leaves in its two output blocks, as values of the blocks it was given.

  The body's stores are one whole-block store per output, so each output block ends holding its store's payload; the
  payloads' loads read three whole input blocks (queries, keys, values) and, of the whole mask, the 512 rows that start
  at 512 times the point's third grid coordinate.
-/
import proofs.«179951_j88742614270714_1_alg».proof.Proof.Gen.KernelIdeal.Frame
import Idealize.ShloMosaic.Lib.Pipeline.Value
import Idealize.ShloMosaic.Lib.Tactic

set_option maxRecDepth 16384

noncomputable section

namespace Cert.Attention.Pieces

open Cert.KernelIdeal Cert.KernelIdeal.Gen
open Idealize.ShloMosaic Idealize.ShloMosaic.TcCoe Idealize.ShloMosaic.Tactic Idealize.SL.Sem

variable {F : FTy → Type} [FloatOps F]

theorem zero4 : (![0, 0, 0, 0] : Fin 4 → Nat) = fun _ => 0 := funext fun a => by fin_cases a <;> rfl

/-- The mask rows a point reads: the whole mask through the rectangle of 512 rows at the point's row offset. -/
abbrev maskRows (i : grid0.Coords) (x3 : Vec F S1x1x2048x2048 .f32) : Vec F S1x1x512x2048 .f32 :=
  View.ld x3 (Rect.unit (s := S1x1x2048x2048) (k0_off1 i) S1x1x512x2048.size (k0_off1_inb i))

/-- The output block ends holding the output payload of the blocks. -/
theorem out_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .f32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x2048x2048 .f32) :
    out0_A_4 c i arg3 harg3 arg4 harg4 arg5 harg5 arg6 harg6 arg7 harg7 arg8 harg8 x0 x1 x2 x3 = k0_pay3 x0 x1 x2 (maskRows i x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  rw [View.canon_unit_zero zero4]
  simp only [View.readAt_eq_ld, harg3.read_unread, harg4.read_unread, harg5.read_unread, harg6.read_unread,
    View.ld_unit_zero (S := S1x1x512x64) zero4, View.ld_unit_zero (S := S1x1x2048x64) zero4]

/-- The weights block ends holding the weights payload of the blocks. -/
theorem weights_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .f32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S1x1x2048x2048 .f32) :
    out0_A_5 c i arg3 harg3 arg4 harg4 arg5 harg5 arg6 harg6 arg7 harg7 arg8 harg8 x0 x1 x2 x3 = k0_pay1 (k0_pay2 x0 x1 (maskRows i x3)) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero zero4]
  simp only [View.readAt_eq_ld, harg3.read_unread, harg4.read_unread, harg6.read_unread,
    View.ld_unit_zero (S := S1x1x512x64) zero4, View.ld_unit_zero (S := S1x1x2048x64) zero4]
  rfl

end Cert.Attention.Pieces

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibCast4.lean ====
/-
  Two leading unit axes dropped from or added to a matrix by a shape cast, and a block of rows cut from a rank-4 array
  with two leading unit axes, each read at an index written by coordinates, over variable extents and any element type.
-/
import Idealize.ShloMosaic.Lib.Pipeline.Value
import Idealize.ShloMosaic.Lib.ValueIdx

namespace Cert.LibCast4

open Idealize.ShloMosaic Idealize.ShloMosaic.ValueIdx

variable {α : Type}

/-- A `[1, 1, a, b]` array cast to `[a, b]` reads, at `(i, j)`, the operand at `(0, 0, i, j)`: both have the row-major
    position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the unit
    coordinates `u`, `w`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

end Cert.LibCast4
-- ==== Proof.LibSoftmax.lean ====
/-
  A softmax over the rows of a matrix, as vector operations spell it, read at an entry.

  The operations: the row maximum by a reduction over the second axis from `−∞`, taken once more against a splat of
  `−∞`, laid as a column and broadcast along the rows; the difference exponentiated; the row sum of the exponentials by a
  reduction from zero, laid as a column and broadcast; the quotient.  Read at `(r, t)` on the extended reals this is
  `exp (L r t − M r) / ∑ u, exp (L r u − M r)` with `M r = max (−∞) (max over the row, from −∞)`.  Variable extents.
-/
import Idealize.ShloMosaic.Lib.Pipeline.Value
import Idealize.ShloMosaic.Lib.ValueIdx
import Idealize.ShloMosaic.PureOps.Ideal.Laws
import proofs.«179951_j88742614270714_1_alg».proof.Proof.LibLayout

noncomputable section

namespace Cert.LibSoftmax

open Idealize.ShloMosaic Idealize.ShloMosaic.ValueIdx

/-- The softmax of one row of extended reals `L` at position `t`, the row's maximum taken from the value of the word
    `0xFF800000` (`−∞`) and once more against it. -/
def row {n : ℕ} (L : Fin n → EReal) (t : Fin n) : EReal :=
  Ideal.div (Ideal.exp (L t - max (Ideal.ofBits .f32 0xFF800000#32) (Finset.univ.fold max (Ideal.ofBits .f32 0xFF800000#32) L)))
    (∑ u : Fin n, Ideal.exp (L u - max (Ideal.ofBits .f32 0xFF800000#32) (Finset.univ.fold max (Ideal.ofBits .f32 0xFF800000#32) L)))

variable {a b : ℕ}

/-- The guarded row maximum as a vector over the rows. -/
def rowMaxVec (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) : FVec Ideal ⟨1, ![a]⟩ .f32 :=
  maximumf (broadcast ⟨1, ![a]⟩ (Scalar.ofBits .f32 0xFF800000#32))
    (multiReduction .maximumf [1] ⟨1, ![a]⟩ L 0xFF800000#32 hr hφ hm)

/-- The exponentials of the matrix less its rows' guarded maxima. -/
def expMat (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  exp (subf L (broadcastTo ⟨2, ![a, b]⟩ (shapeCast ⟨2, ![a, 1]⟩ (rowMaxVec L hr hφ hm) hc) hb))

/-- The softmax of every row, as the vector operations compute it. -/
def softmaxMat (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expMat L hr hφ hm hc hb)
    (broadcastTo ⟨2, ![a, b]⟩ (shapeCast ⟨2, ![a, 1]⟩
      (multiReduction .add [1] ⟨1, ![a]⟩ (expMat L hr hφ hm hc hb) 0x00000000#32 hr hφ hz) hc) hb)

variable (L : FVec Ideal ⟨2, ![a, b]⟩ .f32) (hr : (⟨2, ![a, b]⟩ : Shape).Reduces [1] ⟨1, ![a]⟩) (hφ : FKind.Formats FTy.f32)
  (hm : (0xFF800000#32 : BitVec 32) = 0xFF800000#32) (hz : (0x00000000#32 : BitVec 32) = 0x00000000#32)
  (hc : (⟨1, ![a]⟩ : Shape).ShapeCasts ⟨2, ![a, 1]⟩) (hb : (⟨2, ![a, 1]⟩ : Shape).Broadcasts ⟨2, ![a, b]⟩)

/-- The guarded row maximum at row `r`. -/
theorem rowMaxVec_apply (r : Fin a) :
    rowMaxVec L hr hφ hm (ix1 r)
      = max (Ideal.ofBits .f32 0xFF800000#32) (Finset.univ.fold max (Ideal.ofBits .f32 0xFF800000#32) (fun t => L (ix2 r t))) := by
  unfold rowMaxVec
  rw [maximumf_apply, broadcast_apply, Cert.LibLayout.max_rows_apply]
  rfl

/-- The exponential at `(r, t)`. -/
theorem expMat_apply (r : Fin a) (t : Fin b) :
    expMat L hr hφ hm hc hb (ix2 r t)
      = Ideal.exp (L (ix2 r t) - max (Ideal.ofBits .f32 0xFF800000#32)
          (Finset.univ.fold max (Ideal.ofBits .f32 0xFF800000#32) (fun u => L (ix2 r u)))) := by
  unfold expMat
  show FloatOps.exp (subf L _ (ix2 r t)) = _
  rw [subf_apply, Cert.LibLayout.broadcastTo_a1_ab_apply, Cert.LibLayout.shapeCast_a_a1_apply, rowMaxVec_apply]
  rfl

/-- The softmax at `(r, t)`: the softmax of row `r` at position `t`. -/
theorem softmaxMat_apply (r : Fin a) (t : Fin b) :
    softmaxMat L hr hφ hm hz hc hb (ix2 r t) = row (fun u => L (ix2 r u)) t := by
  unfold softmaxMat
  rw [divf_apply, Cert.LibLayout.broadcastTo_a1_ab_apply, Cert.LibLayout.shapeCast_a_a1_apply,
    Cert.LibLayout.sum_rows_apply, expMat_apply]
  simp only [expMat_apply]
  rfl

end Cert.LibSoftmax

end
-- ==== Proof.Payload.lean ====
/-
  What the kernel body computes from its blocks, entry by entry, on the extended reals.

  From a block of 512 query rows `x0`, all 2048 key rows `x1`, all 2048 value rows `x2` and the 512 mask rows `x9` that
  belong to the query rows, the body forms the logits `(∑ d, x0[r,d] · x1[t,d]) · 0.125 + x9[r,t]` (a product of rows with
  rows into a zero accumulator), turns each row into weights by the softmax, stores the weights, and stores the product
  of the weights with the value rows, `∑ t, w[r,t] · x2[t,d]`.
-/
import proofs.«179951_j88742614270714_1_alg».proof.Proof.Gen.KernelIdeal.Skeleton
import proofs.«179951_j88742614270714_1_alg».proof.Proof.Spec
import proofs.«179951_j88742614270714_1_alg».proof.Proof.LibLayout
import proofs.«179951_j88742614270714_1_alg».proof.Proof.LibCast4
import proofs.«179951_j88742614270714_1_alg».proof.Proof.LibSoftmax

noncomputable section

namespace Cert.Attention.Kernel

open Cert.KernelIdeal Cert.KernelIdeal.Gen
open Idealize.ShloMosaic Idealize.ShloMosaic.ValueIdx Cert.Attention

variable (x0 : FVec Ideal S1x1x512x64 .f32) (x1 x2 : FVec Ideal S1x1x2048x64 .f32) (x9 : FVec Ideal S1x1x512x2048 .f32)

/-- The logit of the block's query row `r` against key row `t`. -/
def blockLogit (r : Fin 512) (t : Fin 2048) : EReal :=
  (∑ d : Fin 64, x0 (ix4 (0 : Fin 1) (0 : Fin 1) r d) * x1 (ix4 (0 : Fin 1) (0 : Fin 1) t d)) * scale
    + x9 (ix4 (0 : Fin 1) (0 : Fin 1) r t)

/-- The body's matrix of logits: queries times keys (rows with rows), scaled, plus the mask rows. -/
def logitMat : FVec Ideal S512x2048 .f32 :=
  addf (mulf (matmul dot_S512x64_S2048x64_S512x2048_1_1_0_0_n_n none (shapeCast S512x64 x0 shapeCasts_S1x1x512x64_S512x64)
      (shapeCast S2048x64 x1 shapeCasts_S1x1x2048x64_S2048x64) (constant S512x2048 .f32 0x00000000#32))
    (broadcast S512x2048 (Scalar.ofBits .f32 0x3E000000#32)))
    (shapeCast S512x2048 x9 shapeCasts_S1x1x512x2048_S512x2048)

theorem qk_lhs0 (j : S512x2048.Idx) (k : dot_S512x64_S2048x64_S512x2048_1_1_0_0_n_n.contr.Idx) :
    (dot_S512x64_S2048x64_S512x2048_1_1_0_0_n_n.lhsIdx j k 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem qk_rhs0 (j : S512x2048.Idx) (k : dot_S512x64_S2048x64_S512x2048_1_1_0_0_n_n.contr.Idx) :
    (dot_S512x64_S2048x64_S512x2048_1_1_0_0_n_n.rhsIdx j k 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

/-- The matrix of logits at `(r, t)`. -/
theorem logitMat_apply (r : Fin 512) (t : Fin 2048) : logitMat x0 x1 x9 (ix2 r t) = blockLogit x0 x1 x9 r t := by
  unfold logitMat blockLogit
  rw [addf_apply, mulf_apply, broadcast_apply, Cert.LibCast4.shapeCast_11ab_ab_apply,
    Cert.LibLayout.matmul_rows_rows_apply _ rfl rfl rfl rfl qk_lhs0 qk_rhs0]
  simp only [Cert.LibCast4.shapeCast_11ab_ab_apply]
  rfl

/-- The weights payload is the softmax of the matrix of logits, row by row. -/
theorem pay2_eq : k0_pay2 (F := Ideal) x0 x1 x9
    = Cert.LibSoftmax.softmaxMat (logitMat x0 x1 x9) reduces_S512x2048_S512 (.inl rfl) rfl rfl shapeCasts_S512_S512x1
        broadcasts_S512x1_S512x2048 := rfl

/-- The weights the body stores, at `(r, t)`: the softmax of row `r`'s logits at `t`. -/
theorem weightBlock_apply (r : Fin 512) (t : Fin 2048) :
    k0_pay2 (F := Ideal) x0 x1 x9 (ix2 r t) = softmaxRow (blockLogit x0 x1 x9 r) t := by
  rw [pay2_eq, Cert.LibSoftmax.softmaxMat_apply]
  simp only [logitMat_apply]
  rfl

/-- The stored weights block `[1, 1, 512, 2048]` at `(0, 0, r, t)`. -/
theorem pay1_apply (w : FVec Ideal S512x2048 .f32) (r : Fin 512) (t : Fin 2048) :
    k0_pay1 (F := Ideal) w (ix4 (0 : Fin 1) (0 : Fin 1) r t) = w (ix2 r t) := by
  unfold k0_pay1
  exact Cert.LibCast4.shapeCast_ab_11ab_apply _ _ 0 0 r t

theorem wv_lhs0 (j : S512x64.Idx) (k : dot_S512x2048_S2048x64_S512x64_1_0_0_1_n_n.contr.Idx) :
    (dot_S512x2048_S2048x64_S512x64_1_0_0_1_n_n.lhsIdx j k 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

theorem wv_rhs1 (j : S512x64.Idx) (k : dot_S512x2048_S2048x64_S512x64_1_0_0_1_n_n.contr.Idx) :
    (dot_S512x2048_S2048x64_S512x64_1_0_0_1_n_n.rhsIdx j k 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The stored output block `[1, 1, 512, 64]` at `(0, 0, r, d)`: row `r`'s weights applied to the value rows. -/
theorem outBlock_apply (r : Fin 512) (d : Fin 64) :
    k0_pay3 (F := Ideal) x0 x1 x2 x9 (ix4 (0 : Fin 1) (0 : Fin 1) r d)
      = ∑ t : Fin 2048, softmaxRow (blockLogit x0 x1 x9 r) t * x2 (ix4 (0 : Fin 1) (0 : Fin 1) t d) := by
  unfold k0_pay3
  rw [Cert.LibCast4.shapeCast_ab_11ab_apply,
    Cert.LibLayout.matmul_rows_cols_apply _ rfl rfl rfl rfl wv_lhs0 wv_rhs1]
  simp only [weightBlock_apply, Cert.LibCast4.shapeCast_11ab_ab_apply]

end Cert.Attention.Kernel

end
-- ==== Proof.PointValue.lean ====
/-
  One grid point's two stored blocks are blocks of the attention of the whole arrays.

  At the point of batch `B`, head `H` and query tile `Qi` the body is given the query rows `512·Qi + r` of `(B, H)`, all
  key and value rows of `(B, H)`, and the mask rows `512·Qi + r`.  Its logits are then the whole arrays' logits of those
  query rows, so the stored weights are the attention weights at `(B, H, 512·Qi + r, t)` and the stored output is the
  attention output at `(B, H, 512·Qi + r, d)`.  Stated over arbitrary blocks that agree with the arrays in this way.
-/
import proofs.«179951_j88742614270714_1_alg».proof.Proof.Payload

noncomputable section

namespace Cert.Attention.Kernel

open Cert.KernelIdeal Cert.KernelIdeal.Gen
open Idealize.ShloMosaic Idealize.ShloMosaic.ValueIdx Cert.Attention

/-- Row `r` of query tile `Qi` as a row of the whole arrays. -/
def tileRow (Qi : ℕ) (hQ : Qi < 4) (r : Fin 512) : Fin 2048 := ⟨512 * Qi + r.val, by omega⟩

variable (Q K Vl : QKV) (M : Mask) (B H Qi : ℕ) (hB : B < 2) (hH : H < 12) (hQ : Qi < 4)
  (x0 : FVec Ideal S1x1x512x64 .f32) (x1 x2 : FVec Ideal S1x1x2048x64 .f32) (x9 : FVec Ideal S1x1x512x2048 .f32)

/-- The block's logits are the arrays' logits of the tile's query rows. -/
theorem blockLogit_eq
    (h0 : ∀ (r : Fin 512) (d : Fin 64), x0 (ix4 (0 : Fin 1) (0 : Fin 1) r d) = Q (ix4 (⟨B, hB⟩ : Fin 2) (⟨H, hH⟩ : Fin 12) (tileRow Qi hQ r) d))
    (h1 : ∀ (t : Fin 2048) (d : Fin 64), x1 (ix4 (0 : Fin 1) (0 : Fin 1) t d) = K (ix4 (⟨B, hB⟩ : Fin 2) (⟨H, hH⟩ : Fin 12) t d))
    (h9 : ∀ (r : Fin 512) (t : Fin 2048), x9 (ix4 (0 : Fin 1) (0 : Fin 1) r t) = M (ix4 (0 : Fin 1) (0 : Fin 1) (tileRow Qi hQ r) t))
    (r : Fin 512) : blockLogit x0 x1 x9 r = logit Q K M ⟨B, hB⟩ ⟨H, hH⟩ (tileRow Qi hQ r) := by
  funext u
  unfold blockLogit logit
  simp only [h0, h1, h9]

/-- The stored weights block is the block of the attention weights. -/
theorem weights_point
    (h0 : ∀ (r : Fin 512) (d : Fin 64), x0 (ix4 (0 : Fin 1) (0 : Fin 1) r d) = Q (ix4 (⟨B, hB⟩ : Fin 2) (⟨H, hH⟩ : Fin 12) (tileRow Qi hQ r) d))
    (h1 : ∀ (t : Fin 2048) (d : Fin 64), x1 (ix4 (0 : Fin 1) (0 : Fin 1) t d) = K (ix4 (⟨B, hB⟩ : Fin 2) (⟨H, hH⟩ : Fin 12) t d))
    (h9 : ∀ (r : Fin 512) (t : Fin 2048), x9 (ix4 (0 : Fin 1) (0 : Fin 1) r t) = M (ix4 (0 : Fin 1) (0 : Fin 1) (tileRow Qi hQ r) t))
    (r : Fin 512) (t : Fin 2048) :
    k0_pay1 (F := Ideal) (k0_pay2 (F := Ideal) x0 x1 x9) (ix4 (0 : Fin 1) (0 : Fin 1) r t)
      = weights Q K M (ix4 (⟨B, hB⟩ : Fin 2) (⟨H, hH⟩ : Fin 12) (tileRow Qi hQ r) t) := by
  rw [pay1_apply, weightBlock_apply, blockLogit_eq Q K M B H Qi hB hH hQ x0 x1 x9 h0 h1 h9 r]
  rfl

/-- The stored output block is the block of the attention output. -/
theorem out_point
    (h0 : ∀ (r : Fin 512) (d : Fin 64), x0 (ix4 (0 : Fin 1) (0 : Fin 1) r d) = Q (ix4 (⟨B, hB⟩ : Fin 2) (⟨H, hH⟩ : Fin 12) (tileRow Qi hQ r) d))
    (h1 : ∀ (t : Fin 2048) (d : Fin 64), x1 (ix4 (0 : Fin 1) (0 : Fin 1) t d) = K (ix4 (⟨B, hB⟩ : Fin 2) (⟨H, hH⟩ : Fin 12) t d))
    (h2 : ∀ (t : Fin 2048) (d : Fin 64), x2 (ix4 (0 : Fin 1) (0 : Fin 1) t d) = Vl (ix4 (⟨B, hB⟩ : Fin 2) (⟨H, hH⟩ : Fin 12) t d))
    (h9 : ∀ (r : Fin 512) (t : Fin 2048), x9 (ix4 (0 : Fin 1) (0 : Fin 1) r t) = M (ix4 (0 : Fin 1) (0 : Fin 1) (tileRow Qi hQ r) t))
    (r : Fin 512) (d : Fin 64) :
    k0_pay3 (F := Ideal) x0 x1 x2 x9 (ix4 (0 : Fin 1) (0 : Fin 1) r d)
      = attend Q K Vl M (ix4 (⟨B, hB⟩ : Fin 2) (⟨H, hH⟩ : Fin 12) (tileRow Qi hQ r) d) := by
  rw [outBlock_apply, blockLogit_eq Q K M B H Qi hB hH hQ x0 x1 x9 h0 h1 h9 r]
  simp only [h2]
  rfl

end Cert.Attention.Kernel

end
-- ==== Proof.Blocks.lean ====
/-
  The blocks the grid points are given, read off the argument arrays.

  The grid is 2 × 12 × 4: a batch, a head and a tile of 512 query rows.  At every point the output windows' block
  indices are (batch, head, tile, 0); the query window's are the same; the key and value windows' are (batch, head, 0, 0);
  the mask window's are all zero, and the body reads its rows from 512 · tile.  A block's entry sits in its array at
  block index × block size + the entry's own coordinate, so each block entry is an entry of an argument array.
-/
import proofs.«179951_j88742614270714_1_alg».proof.Proof.Gen.KernelIdeal.Value
import proofs.«179951_j88742614270714_1_alg».proof.Proof.Pieces
import proofs.«179951_j88742614270714_1_alg».proof.Proof.PointValue

set_option maxRecDepth 16384

noncomputable section

namespace Cert.Attention.Blocks

open Cert.KernelIdeal Cert.KernelIdeal.Gen
open Idealize.ShloMosaic Idealize.ShloMosaic.TcCoe Idealize.SL.Sem Idealize.ShloMosaic.ValueIdx
open Idealize.ShloMosaic.Pipeline (Dat)
open Cert.Attention Cert.Attention.Kernel Cert.Attention.Pieces

variable (m : (ℓ : Loc nD τ sig) → Buf (Elt Ideal) ℓ) (ρ : Dev nD → PrngReg)

/-- The printed index maps, decided over the 96 grid points. -/
theorem idx_facts : ∀ t : Fin cfg0.N,
    win0_5.index t (0 : Fin 4) < 2 ∧ win0_5.index t (1 : Fin 4) < 12 ∧ win0_5.index t (2 : Fin 4) < 4 ∧ win0_5.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = 0 ∧ win0_3.index t (1 : Fin 4) = 0 ∧ win0_3.index t (2 : Fin 4) = 0 ∧ win0_3.index t (3 : Fin 4) = 0
    ∧ (grid0.coords t (2 : Fin 3)).val = win0_5.index t (2 : Fin 4) :=
  (by decide +kernel : ∀ t : Fin grid0.N, _)

/-- Every (batch, head, tile) is some point's block index, for both outputs. -/
theorem idx_onto : ∀ (b : Fin 2) (h : Fin 12) (q : Fin 4), ∃ t : Fin cfg0.N,
    win0_5.index t = ![b.val, h.val, q.val, 0] ∧ win0_4.index t = ![b.val, h.val, q.val, 0] :=
  (by decide +kernel : ∀ (b : Fin 2) (h : Fin 12) (q : Fin 4), ∃ t : Fin grid0.N,
    win0_5.index t = ![b.val, h.val, q.val, 0] ∧ win0_4.index t = ![b.val, h.val, q.val, 0])

variable (c : Dev nD) (t : Fin cfg0.N) (B H Qi : ℕ) (hB : B < 2) (hH : H < 12) (hQ : Qi < 4)

/-- The query block's entry `(r, d)` is the queries' entry `(B, H, 512·Qi + r, d)`. -/
theorem q_block (e0 : win0_0.index t (0 : Fin 4) = B) (e1 : win0_0.index t (1 : Fin 4) = H)
    (e2 : win0_0.index t (2 : Fin 4) = Qi) (e3 : win0_0.index t (3 : Fin 4) = 0) (r : Fin 512) (d : Fin 64) :
    (iblk m c 0 t : Vec Ideal S1x1x512x64 .f32) (ix4 (0 : Fin 1) (0 : Fin 1) r d)
      = (m ((c : Thread nD τ).loc main_arg0)) (ix4 (⟨B, hB⟩ : Fin 2) (⟨H, hH⟩ : Fin 12) (tileRow Qi hQ r) d) := by
  unfold iblk
  rw [View.read_apply]
  show V m c main_arg0 _ = _
  refine congrArg (m ((c : Thread nD τ).loc main_arg0)) (funext fun a => Fin.ext ?_)
  match a with
  | ⟨0, _⟩ => show win0_0.index t (0 : Fin 4) * 1 + 1 * 0 = B; omega
  | ⟨1, _⟩ => show win0_0.index t (1 : Fin 4) * 1 + 1 * 0 = H; omega
  | ⟨2, _⟩ => show win0_0.index t (2 : Fin 4) * 512 + 1 * r.val = 512 * Qi + r.val; omega
  | ⟨3, _⟩ => show win0_0.index t (3 : Fin 4) * 64 + 1 * d.val = d.val; omega

/-- The key block's entry `(s, d)` is the keys' entry `(B, H, s, d)`. -/
theorem k_block (e0 : win0_1.index t (0 : Fin 4) = B) (e1 : win0_1.index t (1 : Fin 4) = H)
    (e2 : win0_1.index t (2 : Fin 4) = 0) (e3 : win0_1.index t (3 : Fin 4) = 0) (s : Fin 2048) (d : Fin 64) :
    (iblk m c 1 t : Vec Ideal S1x1x2048x64 .f32) (ix4 (0 : Fin 1) (0 : Fin 1) s d)
      = (m ((c : Thread nD τ).loc main_arg1)) (ix4 (⟨B, hB⟩ : Fin 2) (⟨H, hH⟩ : Fin 12) s d) := by
  unfold iblk
  rw [View.read_apply]
  show V m c main_arg1 _ = _
  refine congrArg (m ((c : Thread nD τ).loc main_arg1)) (funext fun a => Fin.ext ?_)
  match a with
  | ⟨0, _⟩ => show win0_1.index t (0 : Fin 4) * 1 + 1 * 0 = B; omega
  | ⟨1, _⟩ => show win0_1.index t (1 : Fin 4) * 1 + 1 * 0 = H; omega
  | ⟨2, _⟩ => show win0_1.index t (2 : Fin 4) * 2048 + 1 * s.val = s.val; omega
  | ⟨3, _⟩ => show win0_1.index t (3 : Fin 4) * 64 + 1 * d.val = d.val; omega

/-- The value block's entry `(s, d)` is the values' entry `(B, H, s, d)`. -/
theorem v_block (e0 : win0_2.index t (0 : Fin 4) = B) (e1 : win0_2.index t (1 : Fin 4) = H)
    (e2 : win0_2.index t (2 : Fin 4) = 0) (e3 : win0_2.index t (3 : Fin 4) = 0) (s : Fin 2048) (d : Fin 64) :
    (iblk m c 2 t : Vec Ideal S1x1x2048x64 .f32) (ix4 (0 : Fin 1) (0 : Fin 1) s d)
      = (m ((c : Thread nD τ).loc main_arg2)) (ix4 (⟨B, hB⟩ : Fin 2) (⟨H, hH⟩ : Fin 12) s d) := by
  unfold iblk
  rw [View.read_apply]
  show V m c main_arg2 _ = _
  refine congrArg (m ((c : Thread nD τ).loc main_arg2)) (funext fun a => Fin.ext ?_)
  match a with
  | ⟨0, _⟩ => show win0_2.index t (0 : Fin 4) * 1 + 1 * 0 = B; omega
  | ⟨1, _⟩ => show win0_2.index t (1 : Fin 4) * 1 + 1 * 0 = H; omega
  | ⟨2, _⟩ => show win0_2.index t (2 : Fin 4) * 2048 + 1 * s.val = s.val; omega
  | ⟨3, _⟩ => show win0_2.index t (3 : Fin 4) * 64 + 1 * d.val = d.val; omega

/-- The mask rows the point reads, at `(r, s)`: the mask's entry `(0, 0, 512·Qi + r, s)`. -/
theorem mask_block (e0 : win0_3.index t (0 : Fin 4) = 0) (e1 : win0_3.index t (1 : Fin 4) = 0)
    (e2 : win0_3.index t (2 : Fin 4) = 0) (e3 : win0_3.index t (3 : Fin 4) = 0)
    (eg : (grid0.coords t (2 : Fin 3)).val = Qi) (r : Fin 512) (s : Fin 2048) :
    maskRows (grid0.coords t) (iblk m c 3 t : Vec Ideal S1x1x2048x2048 .f32) (ix4 (0 : Fin 1) (0 : Fin 1) r s)
      = (m ((c : Thread nD τ).loc main_arg3)) (ix4 (0 : Fin 1) (0 : Fin 1) (tileRow Qi hQ r) s) := by
  show (iblk m c 3 t : Vec Ideal S1x1x2048x2048 .f32) _ = _
  unfold iblk
  rw [View.read_apply]
  show V m c main_arg3 _ = _
  refine congrArg (m ((c : Thread nD τ).loc main_arg3)) (funext fun a => Fin.ext ?_)
  have ho := k0_off1_eq (grid0.coords t)
  match a with
  | ⟨0, _⟩ => show win0_3.index t (0 : Fin 4) * 1 + 1 * (k0_off1 (grid0.coords t) 0 + 1 * 0) = 0; rw [ho]; show _ * 1 + 1 * (0 + 1 * 0) = 0; omega
  | ⟨1, _⟩ => show win0_3.index t (1 : Fin 4) * 1 + 1 * (k0_off1 (grid0.coords t) 1 + 1 * 0) = 0; rw [ho]; show _ * 1 + 1 * (0 + 1 * 0) = 0; omega
  | ⟨2, _⟩ => show win0_3.index t (2 : Fin 4) * 2048 + 1 * (k0_off1 (grid0.coords t) 2 + 1 * r.val) = 512 * Qi + r.val; rw [ho]; show _ * 2048 + 1 * (512 * (grid0.coords t (2 : Fin 3)).val + 1 * r.val) = _; omega
  | ⟨3, _⟩ => show win0_3.index t (3 : Fin 4) * 2048 + 1 * (k0_off1 (grid0.coords t) 3 + 1 * s.val) = s.val; rw [ho]; show _ * 2048 + 1 * (0 + 1 * s.val) = _; omega

/-! ## What each point writes back -/

/-- What point `t` writes back to the weights array is block `t` of the attention weights of the argument arrays. -/
theorem weights_flushed :
    (dats m 0 c).flushed 5 t
      = ((cfg0.win 5).blk t).view.read (Elt Ideal) (weights (m ((c : Thread nD τ).loc main_arg0)) (m ((c : Thread nD τ).loc main_arg1)) (m ((c : Thread nD τ).loc main_arg3))) := by
  refine (Cert.KernelIdeal.Value.flushed5_A m c t).trans ?_
  refine (congrArg ((cfg0.win 5).cut (grid0.coords t)) (Pieces.weights_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))).trans ?_
  obtain ⟨b0, b1, b2, b3, o0, o1, o2, o3, q0, q1, q2, q3, k0, k1, k2, k3, v0, v1, v2, v3, z0, z1, z2, z3, g⟩ := idx_facts t
  refine funext fun (j : S1x1x512x2048.Idx) => ?_
  rw [View.read_apply]
  obtain ⟨u, w, r, s, rfl⟩ : ∃ (u w : Fin 1) (r : Fin 512) (s : Fin 2048), j = ix4 u w r s := ⟨j 0, j 1, j 2, j 3, eq_ix4 j⟩
  obtain rfl : u = 0 := Subsingleton.elim _ _
  obtain rfl : w = 0 := Subsingleton.elim _ _
  show k0_pay1 (F := Ideal) (k0_pay2 (F := Ideal) (iblk m c 0 t) (iblk m c 1 t) (maskRows (grid0.coords t) (iblk m c 3 t)))
    (ix4 (0 : Fin 1) (0 : Fin 1) r s) = _
  refine (weights_point (m ((c : Thread nD τ).loc main_arg0)) (m ((c : Thread nD τ).loc main_arg1)) (m ((c : Thread nD τ).loc main_arg3)) (win0_5.index t (0 : Fin 4)) (win0_5.index t (1 : Fin 4)) (win0_5.index t (2 : Fin 4)) b0 b1 b2
    (iblk m c 0 t) (iblk m c 1 t) (maskRows (grid0.coords t) (iblk m c 3 t))
    (q_block m c t (win0_5.index t (0 : Fin 4)) (win0_5.index t (1 : Fin 4)) (win0_5.index t (2 : Fin 4)) b0 b1 b2 q0 q1 q2 q3)
    (k_block m c t (win0_5.index t (0 : Fin 4)) (win0_5.index t (1 : Fin 4)) b0 b1 k0 k1 k2 k3)
    (mask_block m c t (win0_5.index t (2 : Fin 4)) b2 z0 z1 z2 z3 g) r s).trans ?_
  refine congrArg (weights (m ((c : Thread nD τ).loc main_arg0)) (m ((c : Thread nD τ).loc main_arg1)) (m ((c : Thread nD τ).loc main_arg3))) (funext fun a => Fin.ext ?_)
  match a with
  | ⟨0, _⟩ => show win0_5.index t (0 : Fin 4) = win0_5.index t (0 : Fin 4) * 1 + 1 * 0; omega
  | ⟨1, _⟩ => show win0_5.index t (1 : Fin 4) = win0_5.index t (1 : Fin 4) * 1 + 1 * 0; omega
  | ⟨2, _⟩ => show 512 * win0_5.index t (2 : Fin 4) + r.val = win0_5.index t (2 : Fin 4) * 512 + 1 * r.val; omega
  | ⟨3, _⟩ => show s.val = win0_5.index t (3 : Fin 4) * 2048 + 1 * s.val; omega

/-- What point `t` writes back to the output array is block `t` of the attention output of the argument arrays. -/
theorem out_flushed :
    (dats m 0 c).flushed 4 t
      = ((cfg0.win 4).blk t).view.read (Elt Ideal) (attend (m ((c : Thread nD τ).loc main_arg0)) (m ((c : Thread nD τ).loc main_arg1)) (m ((c : Thread nD τ).loc main_arg2)) (m ((c : Thread nD τ).loc main_arg3))) := by
  refine (Cert.KernelIdeal.Value.flushed4_A m c t).trans ?_
  refine (congrArg ((cfg0.win 4).cut (grid0.coords t)) (Pieces.out_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))).trans ?_
  obtain ⟨b0, b1, b2, b3, o0, o1, o2, o3, q0, q1, q2, q3, k0, k1, k2, k3, v0, v1, v2, v3, z0, z1, z2, z3, g⟩ := idx_facts t
  refine funext fun (j : S1x1x512x64.Idx) => ?_
  rw [View.read_apply]
  obtain ⟨u, w, r, d, rfl⟩ : ∃ (u w : Fin 1) (r : Fin 512) (d : Fin 64), j = ix4 u w r d := ⟨j 0, j 1, j 2, j 3, eq_ix4 j⟩
  obtain rfl : u = 0 := Subsingleton.elim _ _
  obtain rfl : w = 0 := Subsingleton.elim _ _
  show k0_pay3 (F := Ideal) (iblk m c 0 t) (iblk m c 1 t) (iblk m c 2 t) (maskRows (grid0.coords t) (iblk m c 3 t))
    (ix4 (0 : Fin 1) (0 : Fin 1) r d) = _
  refine (out_point (m ((c : Thread nD τ).loc main_arg0)) (m ((c : Thread nD τ).loc main_arg1)) (m ((c : Thread nD τ).loc main_arg2)) (m ((c : Thread nD τ).loc main_arg3)) (win0_5.index t (0 : Fin 4)) (win0_5.index t (1 : Fin 4)) (win0_5.index t (2 : Fin 4)) b0 b1 b2
    (iblk m c 0 t) (iblk m c 1 t) (iblk m c 2 t) (maskRows (grid0.coords t) (iblk m c 3 t))
    (q_block m c t (win0_5.index t (0 : Fin 4)) (win0_5.index t (1 : Fin 4)) (win0_5.index t (2 : Fin 4)) b0 b1 b2 q0 q1 q2 q3)
    (k_block m c t (win0_5.index t (0 : Fin 4)) (win0_5.index t (1 : Fin 4)) b0 b1 k0 k1 k2 k3)
    (v_block m c t (win0_5.index t (0 : Fin 4)) (win0_5.index t (1 : Fin 4)) b0 b1 v0 v1 v2 v3)
    (mask_block m c t (win0_5.index t (2 : Fin 4)) b2 z0 z1 z2 z3 g) r d).trans ?_
  refine congrArg (attend (m ((c : Thread nD τ).loc main_arg0)) (m ((c : Thread nD τ).loc main_arg1)) (m ((c : Thread nD τ).loc main_arg2)) (m ((c : Thread nD τ).loc main_arg3))) (funext fun a => Fin.ext ?_)
  match a with
  | ⟨0, _⟩ => show win0_5.index t (0 : Fin 4) = win0_4.index t (0 : Fin 4) * 1 + 1 * 0; omega
  | ⟨1, _⟩ => show win0_5.index t (1 : Fin 4) = win0_4.index t (1 : Fin 4) * 1 + 1 * 0; omega
  | ⟨2, _⟩ => show 512 * win0_5.index t (2 : Fin 4) + r.val = win0_4.index t (2 : Fin 4) * 512 + 1 * r.val; omega
  | ⟨3, _⟩ => show d.val = win0_4.index t (3 : Fin 4) * 64 + 1 * d.val; omega

/-! ## The blocks cover the arrays -/

/-- An index of the weights array is in point `t`'s block iff each coordinate is in the block's range on its axis. -/
theorem mem_weights_blk (i : S2x12x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- The same for the output array. -/
theorem mem_out_blk (i : S2x12x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every entry of the weights array is in the block of the point of its batch, head and tile `row / 512`. -/
theorem weights_cover (i : S2x12x2048x2048.Idx) :
    ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, ht, -⟩ := idx_onto ⟨(i 0).val, hi0⟩ ⟨(i 1).val, hi1⟩ ⟨(i 2).val / 512, by omega⟩
  have p0 : win0_5.index t (0 : Fin 4) = (i 0).val := congrFun ht 0
  have p1 : win0_5.index t (1 : Fin 4) = (i 1).val := congrFun ht 1
  have p2 : win0_5.index t (2 : Fin 4) = (i 2).val / 512 := congrFun ht 2
  have p3 : win0_5.index t (3 : Fin 4) = 0 := congrFun ht 3
  refine ⟨t, flush0_5 t, ?_⟩
  rw [mem_weights_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every entry of the output array is in the block of the point of its batch, head and tile `row / 512`. -/
theorem out_cover (i : S2x12x2048x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, -, ht⟩ := idx_onto ⟨(i 0).val, hi0⟩ ⟨(i 1).val, hi1⟩ ⟨(i 2).val / 512, by omega⟩
  have p0 : win0_4.index t (0 : Fin 4) = (i 0).val := congrFun ht 0
  have p1 : win0_4.index t (1 : Fin 4) = (i 1).val := congrFun ht 1
  have p2 : win0_4.index t (2 : Fin 4) = (i 2).val / 512 := congrFun ht 2
  have p3 : win0_4.index t (3 : Fin 4) = 0 := congrFun ht 3
  refine ⟨t, flush0_4 t, ?_⟩
  rw [mem_out_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The weights array ends holding the attention weights of the argument arrays. -/
theorem weights_final : (dats m 0 c).arrAt 5 cfg0.N = weights (m ((c : Thread nD τ).loc main_arg0)) (m ((c : Thread nD τ).loc main_arg1)) (m ((c : Thread nD τ).loc main_arg3)) :=
  (dats m 0 c).arrAt_eq_of_cover 5 (weights (m ((c : Thread nD τ).loc main_arg0)) (m ((c : Thread nD τ).loc main_arg1)) (m ((c : Thread nD τ).loc main_arg3))) (fun t _ => weights_flushed m c t) weights_cover

/-- The output array ends holding the attention output of the argument arrays. -/
theorem out_final : (dats m 0 c).arrAt 4 cfg0.N = attend (m ((c : Thread nD τ).loc main_arg0)) (m ((c : Thread nD τ).loc main_arg1)) (m ((c : Thread nD τ).loc main_arg2)) (m ((c : Thread nD τ).loc main_arg3)) :=
  (dats m 0 c).arrAt_eq_of_cover 4 (attend (m ((c : Thread nD τ).loc main_arg0)) (m ((c : Thread nD τ).loc main_arg1)) (m ((c : Thread nD τ).loc main_arg2)) (m ((c : Thread nD τ).loc main_arg3))) (fun t _ => out_flushed m c t) out_cover

/-- The kernel's run: every weakly fair execution ends with the two result arrays at the attention output and the
    attention weights of the argument arrays, which end unchanged. -/
theorem run : θ_run defs (onTc (τ := τ) (main (F := Ideal))) ⟨m, fun _ => 0, ρ⟩ fun r => ∀ c : Dev nD,
      r.2.mem ((c : Thread nD τ).loc main_v0_0) = attend (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (weights_final m c), (h c).2.2⟩)
    (Cert.KernelIdeal.Value.run_blocks m ρ)

end Cert.Attention.Blocks

end
-- ==== Proof.lean ====
/-
  Scaled dot-product attention with an additive mask: a tiled kernel against the plain formula.

  Both programs compute, for queries, keys and values of shape [2, 12, 2048, 64] and a mask [1, 1, 2048, 2048],
  the weights `softmax_t ((∑ d, q[b,h,s,d] · k[b,h,t,d]) · c + mask[0,0,s,t])` and the output `∑ t, w[b,h,s,t] · v[b,h,t,d]`.
  The kernel walks a 2 × 12 × 4 grid; at each point it multiplies 512 query rows by all key rows, scales by the
  float `0.125`, adds the 512 mask rows it cuts from the whole mask, takes the softmax of every row, and multiplies by
  the value rows.  The reference forms the same quantities on whole arrays and divides by the square root of `64.0`
  where the kernel multiplies.  On the extended reals a matrix product into a zero accumulator and the host's
  `dot_general` are the same sums, the row reductions are the same folds and sums, and `x / √64 = x · 0.125` for every
  extended real `x` (Proof/Scale.lean), so no finiteness of the inputs is used.

  Proof/Spec.lean states the two results as functions of the argument arrays; Proof/RefSpec.lean reads the reference's
  stages at coordinates and finds those functions; Proof/Payload.lean and Proof/PointValue.lean read the kernel body's
  stored values; Proof/Pieces.lean and Proof/Blocks.lean carry them through the grid to the result arrays.  The
  idealization rewrote nothing, so the kernel and its idealization are one text.
-/
import proofs.«179951_j88742614270714_1_alg».proof.Defs
import proofs.«179951_j88742614270714_1_alg».proof.Proof.Gen.Kernel
import proofs.«179951_j88742614270714_1_alg».proof.Proof.Gen.Kernel.Skeleton
import proofs.«179951_j88742614270714_1_alg».proof.Proof.Gen.Kernel.Launch
import proofs.«179951_j88742614270714_1_alg».proof.Proof.Gen.Kernel.Points
import proofs.«179951_j88742614270714_1_alg».proof.Proof.Gen.Kernel.Frame
import proofs.«179951_j88742614270714_1_alg».proof.Proof.Gen.KernelIdeal
import proofs.«179951_j88742614270714_1_alg».proof.Proof.Gen.KernelIdeal.Skeleton
import proofs.«179951_j88742614270714_1_alg».proof.Proof.Gen.KernelIdeal.Launch
import proofs.«179951_j88742614270714_1_alg».proof.Proof.Gen.KernelIdeal.Points
import proofs.«179951_j88742614270714_1_alg».proof.Proof.Gen.KernelIdeal.Frame
import proofs.«179951_j88742614270714_1_alg».proof.Proof.Gen.ReferenceIdeal
import proofs.«179951_j88742614270714_1_alg».proof.Proof.Gen.Pre_finite_inputs
import proofs.«179951_j88742614270714_1_alg».proof.Proof.Gen.KernelIdeal.Value
import proofs.«179951_j88742614270714_1_alg».proof.Proof.Gen.ReferenceIdeal.Run
import proofs.«179951_j88742614270714_1_alg».proof.Proof.Gen.ReferenceIdeal.Read
import proofs.«179951_j88742614270714_1_alg».proof.Proof.RefSpec
import proofs.«179951_j88742614270714_1_alg».proof.Proof.Blocks
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals the kernel's two result arrays end at the attention output and the attention weights of its
    argument arrays, and the reference's two results are the same functions of arguments that agree. -/
theorem algebraic : Cert.algebraic_KernelIdeal_ReferenceIdeal := by
  intro m ρ m' ρ' _ hagree
  refine ⟨_, _, Cert.Attention.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.Attention.Ref.attend_eq, (hagree c).1, (hagree c).2.1,
      (hagree c).2.2.1, (hagree c).2.2.2]
  · rw [Cert.ReferenceIdeal.Read.val_main_v16_eq, Cert.Attention.Ref.weights_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
